-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S256 .f32) (main_arg10 : FVec F S256x1 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x256 .f32) (main_arg9 : FVec F S256 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x256 .f32) (main_arg9 : FVec F S256 .f32) (main_arg10 : FVec F S256x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S256x128 : Shape := ⟨2, ![256, 128]⟩
abbrev S1x1 : Shape := ⟨2, ![1, 1]⟩
abbrev S1x256 : Shape := ⟨2, ![1, 256]⟩
abbrev S4000x256 : Shape := ⟨2, ![4000, 256]⟩

abbrev nBuf : Space → Nat
  | .hbm => 66
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .i32⟩
  | .hbm, ⟨55, _⟩ => ⟨S_, .f32⟩
  | .hbm, ⟨56, _⟩ => ⟨S256x128, .f32⟩
  | .hbm, ⟨57, _⟩ => ⟨S1x1, .f32⟩
  | .hbm, ⟨58, _⟩ => ⟨S_, .i32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x256, .f32⟩
  | .hbm, ⟨63, _⟩ => ⟨S100000x128, .f32⟩
  | .hbm, ⟨64, _⟩ => ⟨S100000x128, .f32⟩
  | .hbm, ⟨65, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_call0_v0 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_call1_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_v39 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  pads_S256x1_S256x128_000_01270 : S256x1.Pads (![0, 0] : Fin 2 → Nat) ![0, 127] ![0, 0] S256x128
  h_S_ : 0 < S_.numel
  shapeCasts_S1_S1x1 : S1.ShapeCasts S1x1
  pads_S1x1_S1x128_000_01270 : S1x1.Pads (![0, 0] : Fin 2 → Nat) ![0, 127] ![0, 0] S1x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S100000x128_S100000x1_0_0 : S100000x128.Slices ![0, 0] S100000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .f32 = 32 ∨ (Rect.block (s := S256x128) S256x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .f32 = 32 ∨ (Rect.block (s := S100000x128) S4000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S100000x128.size a
  hwx1_11 : ∀ i : grid1.Coords, EltTy.bits .f32 = 32 ∨ (Rect.block (s := S100000x128) S4000x128.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v20) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S256x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38_0) S4000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v38_1) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x256 : Shape := ⟨2, ![100000, 256]⟩
abbrev S1x256 : Shape := ⟨2, ![1, 256]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x256, .f32⟩
  | .hbm, ⟨89, _⟩ => ⟨S1x256, .f32⟩
  | .hbm, ⟨90, _⟩ => ⟨S100000x256, .f32⟩
  | .hbm, ⟨91, _⟩ => ⟨S100000x256, .f32⟩
  | .hbm, ⟨92, _⟩ => ⟨S_, .f32⟩
  | .hbm, ⟨93, _⟩ => ⟨S100000x256, .f32⟩
  | .hbm, ⟨94, _⟩ => ⟨S100000x256, .f32⟩
  | .hbm, ⟨95, _⟩ => ⟨S100000x1, .f32⟩
  | .hbm, ⟨96, _⟩ => ⟨S1x1, .f32⟩
  | .hbm, ⟨97, _⟩ => ⟨S100000x1, .f32⟩
  | .hbm, ⟨98, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x1_S100000x1_1_0_0_1_n_n_wf : DotDims.WF S100000x256 S256x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.KernelRun.lean ====
/-
  The idealized kernel's run with its two results named: every weakly fair execution of @main terminates, nothing
  faulting, with each result buffer holding what the last boundary's contents hold there (the fold of the host
  stretches and of the two regions' write-backs from the launch memory), and the arguments as launched.
-/
import proofs.«139941_j36928128811710_2_alg».proof.Proof.Gen.KernelIdeal.Frame

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the contents of the last boundary, the arguments unchanged. -/
theorem run : θ_run defs (onTc (τ := τ) (main (F := F))) ⟨m, fun _ => 0, ρ⟩ (fun r => ∀ c : Dev nD,
      r.2.mem ((c.tc : Thread nD τ).loc main_v38_0) = W9 m ρ c (Proc.devRef .tc main_v38_0)
      ∧ r.2.mem ((c.tc : Thread nD τ).loc main_v39) = W9 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38_0 (by decide)),
       h c _ (mem_uc main_v39 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.Sage.KRun

end
-- ==== Proof.Spec.lean ====
/-
  Two layers of mean aggregation over a graph followed by a two-layer perceptron, as functions of the
  argument arrays, entry by entry, in the extended reals.

  The graph has 100000 nodes with 128 features and 1600000 edges (row 0 of the edge array: sources, row 1:
  destinations). For a node array X the aggregate `agg X e` adds, into row dst(j), row src(j) of X for every
  edge j (a gather followed by a scatter-add into zeros), and `degc e` is the number of edges into each node,
  at least 1. One layer is, at node p and feature q,
      Σₖ (M(p,k) / d(p)) · Wl(k,q)  +  Σₖ X(p,k) · Wr(k,q)  +  b(q)
  with M the aggregate of X and d the clamped in-degree. The first layer is followed by max(·, 0); the second
  layer's value is the first result. The second result is, at node p,
      Σₖ max(Σⱼ max(E(p,j), 0) · Wm1(j,k) + bm1(k), 0) · Wm2(k,0) + bm2(0).
-/
import proofs.«139941_j36928128811710_2_alg».proof.Proof.Gen.KernelIdeal
import Idealize.ShloMosaic.Lib.ValueIdx
import Idealize.ShloMosaic.PureOps.Ideal

noncomputable section

open scoped BigOperators

namespace Cert.Sage

open Idealize.ShloMosaic Idealize.ShloMosaic.ValueIdx Cert.KernelIdeal Cert.KernelIdeal.Gen

/-- The float zero both programs compare against and start their sums from. -/
abbrev z : EReal := Ideal.ofBits .f32 0x00000000#32

/-- Row 1 of the edge array: the destination of every edge. -/
def dstRow (e : IVec S2x1600000 32) : IVec S1600000 32 :=
  shapeCast S1600000 (extractStridedSlice S1x1600000 ![1, 0] e slices_S2x1600000_S1x1600000_1_0) shapeCasts_S1x1600000_S1600000

/-- Row 0 of the edge array: the source of every edge, as written. -/
def srcRow (e : IVec S2x1600000 32) : IVec S1600000 32 :=
  shapeCast S1600000 (extractStridedSlice S1x1600000 ![0, 0] e slices_S2x1600000_S1x1600000_0_0) shapeCasts_S1x1600000_S1600000

/-- The sum, into row d(j), of row s(j) of `X` over the edges j (a negative source counted from the end): a gather of
    the source rows followed by a scatter-add into zeros. -/
def aggOf (X : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The aggregate over the edge array's sources and destinations. -/
def agg (X : FVec Ideal S100000x128 .f32) (e : IVec S2x1600000 32) : FVec Ideal S100000x128 .f32 :=
  aggOf X (srcRow e) (dstRow e)

/-- The number of edges j with d(j) a given node (a scatter-add of ones), and 1 where there is none. -/
def degOf (d : IVec S1600000 32) : FVec Ideal S100000 .f32 :=
  maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- The clamped in-degree over the edge array's destinations. -/
def degc (e : IVec S2x1600000 32) : FVec Ideal S100000 .f32 := degOf (dstRow e)

/-- One layer at node `p`, feature `q`: the mean of the aggregate through `Wl`, the node's own row through
    `Wr`, and the bias. -/
def sageAt (M X : FVec Ideal S100000x128 .f32) (d : FVec Ideal S100000 .f32) (Wl Wr : FVec Ideal S128x128 .f32)
    (b : FVec Ideal S128 .f32) (p : Fin 100000) (q : Fin 128) : EReal :=
  (∑ k : Fin 128, Ideal.div (M (ix2 p k)) (d (ix1 p)) * Wl (ix2 k q)) + (∑ k : Fin 128, X (ix2 p k) * Wr (ix2 k q))
    + b (ix1 q)

/-- One layer as an array. -/
def sage (M X : FVec Ideal S100000x128 .f32) (d : FVec Ideal S100000 .f32) (Wl Wr : FVec Ideal S128x128 .f32)
    (b : FVec Ideal S128 .f32) : FVec Ideal S100000x128 .f32 :=
  fun i => sageAt M X d Wl Wr b (i 0) (i 1)

/-- The first layer's output: the layer over the aggregate of `x`, cut off below at zero. -/
def h0 (x : FVec Ideal S100000x128 .f32) (e : IVec S2x1600000 32) (Wl0 Wr0 : FVec Ideal S128x128 .f32)
    (b0 : FVec Ideal S128 .f32) : FVec Ideal S100000x128 .f32 :=
  fun i => max (sage (agg x e) x (degc e) Wl0 Wr0 b0 i) z

/-- The second layer over the first layer's output: the first result. -/
def emb (x : FVec Ideal S100000x128 .f32) (e : IVec S2x1600000 32) (Wl0 Wr0 : FVec Ideal S128x128 .f32)
    (b0 : FVec Ideal S128 .f32) (Wl1 Wr1 : FVec Ideal S128x128 .f32) (b1 : FVec Ideal S128 .f32) :
    FVec Ideal S100000x128 .f32 :=
  sage (agg (h0 x e Wl0 Wr0 b0) e) (h0 x e Wl0 Wr0 b0) (degc e) Wl1 Wr1 b1

/-- The perceptron's hidden unit `k` at node `p`. -/
def hidAt (E : FVec Ideal S100000x128 .f32) (Wm1 : FVec Ideal S128x256 .f32) (bm1 : FVec Ideal S256 .f32)
    (p : Fin 100000) (k : Fin 256) : EReal :=
  max ((∑ j : Fin 128, max (E (ix2 p j)) z * Wm1 (ix2 j k)) + bm1 (ix1 k)) z

/-- The perceptron's one output at node `p`. -/
def predAt (E : FVec Ideal S100000x128 .f32) (Wm1 : FVec Ideal S128x256 .f32) (bm1 : FVec Ideal S256 .f32)
    (Wm2 : FVec Ideal S256x1 .f32) (bm2 : FVec Ideal S1 .f32) (p : Fin 100000) : EReal :=
  (∑ k : Fin 256, hidAt E Wm1 bm1 p k * Wm2 (ix2 k (0 : Fin 1))) + bm2 (ix1 (0 : Fin 1))

/-- The second result: the perceptron's output as a one-column array. -/
def pred (E : FVec Ideal S100000x128 .f32) (Wm1 : FVec Ideal S128x256 .f32) (bm1 : FVec Ideal S256 .f32)
    (Wm2 : FVec Ideal S256x1 .f32) (bm2 : FVec Ideal S1 .f32) : FVec Ideal S100000x1 .f32 :=
  fun i => predAt E Wm1 bm1 Wm2 bm2 (i 0)

end Cert.Sage

end
-- ==== Proof.KHost0.lean ====
/-
  The buffers the first region is entered with, and the buffers of the stretch before it that later stretches read,
  as the host operations before the first region leave them: the aggregate of the node features, the clamped in-degree
  as a column, the bias as a row, the edge array's two rows, and the arguments untouched.
-/
import proofs.«139941_j36928128811710_2_alg».proof.Proof.Gen.KernelIdeal.Frame
import proofs.«139941_j36928128811710_2_alg».proof.Proof.Spec
import Idealize.ShloMosaic.Lib.StableHlo.Run

set_option maxRecDepth 16384
set_option maxHeartbeats 1000000

noncomputable section

namespace Cert.Sage.KHost0

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## The first region's entry arrays -/

theorem V1_v20 (c : Dev nD) : V1 m ρ c main_v20 = agg (m ((c.tc : Thread nD τ).loc main_arg0)) (m ((c.tc : Thread nD τ).loc main_arg1)) := by
  show StableHlo.after hostOps0 (W0 m ρ c) (Proc.devRef .tc main_v20) = _
  after_results_simp <;> rfl

theorem V1_v10 (c : Dev nD) : V1 m ρ c main_v10 = shapeCast S100000x1 (degc (m ((c.tc : Thread nD τ).loc main_arg1))) shapeCasts_S100000_S100000x1 := by
  show StableHlo.after hostOps0 (W0 m ρ c) (Proc.devRef .tc main_v10) = _
  after_results_simp <;> rfl

theorem V1_v21 (c : Dev nD) : V1 m ρ c main_v21 = shapeCast S1x128 (m ((c.tc : Thread nD τ).loc main_arg3)) shapeCasts_S128_S1x128 := by
  show StableHlo.after hostOps0 (W0 m ρ c) (Proc.devRef .tc main_v21) = _
  after_results_simp <;> rfl

theorem V1_arg0 (c : Dev nD) : V1 m ρ c main_arg0 = m ((c.tc : Thread nD τ).loc main_arg0) := by
  show StableHlo.after hostOps0 (W0 m ρ c) (Proc.devRef .tc main_arg0) = _
  after_results_simp <;> rfl

theorem V1_arg2 (c : Dev nD) : V1 m ρ c main_arg2 = m ((c.tc : Thread nD τ).loc main_arg2) := by
  show StableHlo.after hostOps0 (W0 m ρ c) (Proc.devRef .tc main_arg2) = _
  after_results_simp <;> rfl

theorem V1_arg4 (c : Dev nD) : V1 m ρ c main_arg4 = m ((c.tc : Thread nD τ).loc main_arg4) := by
  show StableHlo.after hostOps0 (W0 m ρ c) (Proc.devRef .tc main_arg4) = _
  after_results_simp <;> rfl

end Cert.Sage.KHost0

end
-- ==== Proof.KHostW.lean ====
/-
  What the stretches after the first region read of the buffers written before it: the first region writes none of
  them, so they hold what the host operations before it left — the edge array's two rows, and the arguments.
-/
import proofs.«139941_j36928128811710_2_alg».proof.Proof.Gen.KernelIdeal.Frame
import proofs.«139941_j36928128811710_2_alg».proof.Proof.Spec
import Idealize.ShloMosaic.Lib.StableHlo.Run

set_option maxRecDepth 16384
set_option maxHeartbeats 1000000

noncomputable section

namespace Cert.Sage.KHostW

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

theorem W2_v1 (c : Dev nD) : W2 m ρ c (Proc.devRef .tc main_v1) = srcRow (m ((c.tc : Thread nD τ).loc main_arg1)) :=
  (W2_of_ne m ρ c main_v1 (by decide)).trans (by
    show StableHlo.after hostOps0 (W0 m ρ c) (Proc.devRef .tc main_v1) = _
    after_results_simp <;> rfl)

theorem W2_v3 (c : Dev nD) : W2 m ρ c (Proc.devRef .tc main_v3) = dstRow (m ((c.tc : Thread nD τ).loc main_arg1)) :=
  (W2_of_ne m ρ c main_v3 (by decide)).trans (by
    show StableHlo.after hostOps0 (W0 m ρ c) (Proc.devRef .tc main_v3) = _
    after_results_simp <;> rfl)

theorem W2_arg5 (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results_simp <;> rfl)

theorem W2_arg6 (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results_simp <;> rfl)

theorem W2_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results_simp <;> rfl)

theorem W2_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results_simp <;> rfl)

theorem W2_arg9 (c : Dev nD) : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results_simp <;> rfl)

theorem W2_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results_simp <;> rfl)

theorem W2_arg11 (c : Dev nD) : W2 m ρ c (Proc.devRef .tc main_arg11) = m ((c.tc : Thread nD τ).loc main_arg11) :=
  (W2_of_ne m ρ c main_arg11 (by decide)).trans (by
    show StableHlo.after hostOps0 (W0 m ρ c) (Proc.devRef .tc main_arg11) = _
    after_results_simp <;> rfl)

end Cert.Sage.KHostW

end
-- ==== Proof.KHost1.lean ====
/-
  The buffers the second region is entered with, from the contents the first region leaves: the aggregate of the first
  region's output, the biases as rows, the last weight matrix and bias padded with zero columns, and buffers passed
  through untouched.
-/
import proofs.«139941_j36928128811710_2_alg».proof.Proof.Gen.KernelIdeal.Frame
import proofs.«139941_j36928128811710_2_alg».proof.Proof.Spec
import Idealize.ShloMosaic.Lib.StableHlo.Run

set_option maxRecDepth 16384
set_option maxHeartbeats 1000000

noncomputable section

namespace Cert.Sage.KHost1

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

theorem V7_v32 (c : Dev nD) : V7 m ρ c main_v32 = aggOf (W2 m ρ c (Proc.devRef .tc main_v22)) (W2 m ρ c (Proc.devRef .tc main_v1)) (W2 m ρ c (Proc.devRef .tc main_v3)) := by
  show StableHlo.after hostOps1_4 (StableHlo.after hostOps1_3 (StableHlo.after hostOps1_2 (StableHlo.after hostOps1_1
    (StableHlo.after hostOps1 (W2 m ρ c))))) (Proc.devRef .tc main_v32) = _
  after_results_simp <;> rfl

theorem V7_v10 (c : Dev nD) : V7 m ρ c main_v10 = W2 m ρ c (Proc.devRef .tc main_v10) := by
  show StableHlo.after hostOps1_4 (StableHlo.after hostOps1_3 (StableHlo.after hostOps1_2 (StableHlo.after hostOps1_1
    (StableHlo.after hostOps1 (W2 m ρ c))))) (Proc.devRef .tc main_v10) = _
  after_results_simp <;> rfl

theorem V7_v22 (c : Dev nD) : V7 m ρ c main_v22 = W2 m ρ c (Proc.devRef .tc main_v22) := by
  show StableHlo.after hostOps1_4 (StableHlo.after hostOps1_3 (StableHlo.after hostOps1_2 (StableHlo.after hostOps1_1
    (StableHlo.after hostOps1 (W2 m ρ c))))) (Proc.devRef .tc main_v22) = _
  after_results_simp <;> rfl

theorem V7_arg5 (c : Dev nD) : V7 m ρ c main_arg5 = W2 m ρ c (Proc.devRef .tc main_arg5) := by
  show StableHlo.after hostOps1_4 (StableHlo.after hostOps1_3 (StableHlo.after hostOps1_2 (StableHlo.after hostOps1_1
    (StableHlo.after hostOps1 (W2 m ρ c))))) (Proc.devRef .tc main_arg5) = _
  after_results_simp <;> rfl

theorem V7_arg7 (c : Dev nD) : V7 m ρ c main_arg7 = W2 m ρ c (Proc.devRef .tc main_arg7) := by
  show StableHlo.after hostOps1_4 (StableHlo.after hostOps1_3 (StableHlo.after hostOps1_2 (StableHlo.after hostOps1_1
    (StableHlo.after hostOps1 (W2 m ρ c))))) (Proc.devRef .tc main_arg7) = _
  after_results_simp <;> rfl

theorem V7_arg8 (c : Dev nD) : V7 m ρ c main_arg8 = W2 m ρ c (Proc.devRef .tc main_arg8) := by
  show StableHlo.after hostOps1_4 (StableHlo.after hostOps1_3 (StableHlo.after hostOps1_2 (StableHlo.after hostOps1_1
    (StableHlo.after hostOps1 (W2 m ρ c))))) (Proc.devRef .tc main_arg8) = _
  after_results_simp <;> rfl

theorem V7_v36 (c : Dev nD) : V7 m ρ c main_v36 = shapeCast S1x128 (W2 m ρ c (Proc.devRef .tc main_arg6)) shapeCasts_S128_S1x128 := by
  show StableHlo.after hostOps1_4 (StableHlo.after hostOps1_3 (StableHlo.after hostOps1_2 (StableHlo.after hostOps1_1
    (StableHlo.after hostOps1 (W2 m ρ c))))) (Proc.devRef .tc main_v36) = _
  after_results_simp <;> rfl

theorem V7_v37 (c : Dev nD) : V7 m ρ c main_v37 = shapeCast S1x256 (W2 m ρ c (Proc.devRef .tc main_arg9)) shapeCasts_S256_S1x256 := by
  show StableHlo.after hostOps1_4 (StableHlo.after hostOps1_3 (StableHlo.after hostOps1_2 (StableHlo.after hostOps1_1
    (StableHlo.after hostOps1 (W2 m ρ c))))) (Proc.devRef .tc main_v37) = _
  after_results_simp <;> rfl

theorem V7_v33 (c : Dev nD) : V7 m ρ c main_v33
    = pad S256x128 ![0, 0] ![0, 127] ![0, 0] (W2 m ρ c (Proc.devRef .tc main_arg10)) (sitofp (F := Ideal) .f32 (constantI S_ 32 0#32))
        pads_S256x1_S256x128_000_01270 h_S_ := by
  show StableHlo.after hostOps1_4 (StableHlo.after hostOps1_3 (StableHlo.after hostOps1_2 (StableHlo.after hostOps1_1
    (StableHlo.after hostOps1 (W2 m ρ c))))) (Proc.devRef .tc main_v33) = _
  after_results_simp <;> rfl

theorem V7_v35 (c : Dev nD) : V7 m ρ c main_v35
    = pad S1x128 ![0, 0] ![0, 127] ![0, 0] (shapeCast S1x1 (W2 m ρ c (Proc.devRef .tc main_arg11)) shapeCasts_S1_S1x1)
        (sitofp (F := Ideal) .f32 (constantI S_ 32 0#32)) pads_S1x1_S1x128_000_01270 h_S_ := by
  show StableHlo.after hostOps1_4 (StableHlo.after hostOps1_3 (StableHlo.after hostOps1_2 (StableHlo.after hostOps1_1
    (StableHlo.after hostOps1 (W2 m ρ c))))) (Proc.devRef .tc main_v35) = _
  after_results_simp <;> rfl

/-! ## After the second region -/

theorem W9_v38_0 (c : Dev nD) : W9 m ρ c (Proc.devRef .tc main_v38_0) = W8 m ρ c (Proc.devRef .tc main_v38_0) := by
  show StableHlo.after hostOps2 (W8 m ρ c) (Proc.devRef .tc main_v38_0) = _
  after_results_simp

theorem W9_v39 (c : Dev nD) : W9 m ρ c (Proc.devRef .tc main_v39)
    = extractStridedSlice S100000x1 ![0, 0] (W8 m ρ c (Proc.devRef .tc main_v38_1)) slices_S100000x128_S100000x1_0_0 := by
  show StableHlo.after hostOps2 (W8 m ρ c) (Proc.devRef .tc main_v39) = _
  after_results_simp

end Cert.Sage.KHost1

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.Payload.lean ====
/-
  The bodies of the two kernels read at one entry, in the extended reals.

  A block holds 4000 nodes. The first kernel's stored value at (p, q) is
      max( Σₖ (msg(p,k) / deg(p,0)) · Wl(k,q) + Σₖ x(p,k) · Wr(k,q) + b(0,q), 0 ),
  the roundings to the narrow float format being the identity on extended reals and each matrix product into a
  zero accumulator the plain sum over the contracted coordinate. The second kernel stores the same expression
  without the cut-off, and then, from it, the perceptron: a cut-off, a product with a 128×256 matrix plus a
  bias row, a cut-off, a product with a 256×128 matrix plus a bias row.
-/
import proofs.«139941_j36928128811710_2_alg».proof.Proof.Gen.KernelIdeal.Skeleton
import proofs.«139941_j36928128811710_2_alg».proof.Proof.LibPlainDot
import proofs.«139941_j36928128811710_2_alg».proof.Proof.LibRowVector
import proofs.«139941_j36928128811710_2_alg».proof.Proof.LibKeepdims
import Idealize.ShloMosaic.Lib.ValueIdx
import Idealize.ShloMosaic.Lib.Pipeline.Value

noncomputable section

open scoped BigOperators

namespace Cert.Sage

open Idealize.ShloMosaic Idealize.ShloMosaic.ValueIdx Cert.KernelIdeal Cert.KernelIdeal.Gen

/-- The float zero of the cut-offs. -/
abbrev zz : EReal := Ideal.ofBits .f32 0x00000000#32

/-- One layer inside a block, at node `p` of the block and feature `q`. -/
def layerAt (v0 : Vec Ideal S4000x128 .f32) (v2 : Vec Ideal S4000x1 .f32) (v7 : Vec Ideal S4000x128 .f32)
    (v9 v11 : Vec Ideal S128x128 .f32) (v16 : Vec Ideal S1x128 .f32) (p : Fin 4000) (q : Fin 128) : EReal :=
  (∑ k : Fin 128, Ideal.div (v0 (ix2 p k)) (v2 (ix2 p (0 : Fin 1))) * v9 (ix2 k q)) + (∑ k : Fin 128, v7 (ix2 p k) * v11 (ix2 k q))
    + v16 (ix2 (0 : Fin 1) q)

/-- The mean of the aggregate at an entry of the block: the aggregate over the block's degree column. -/
theorem mean_apply (v0 : Vec Ideal S4000x128 .f32) (v2 : Vec Ideal S4000x1 .f32) (p : Fin 4000) (k : Fin 128) :
    (truncf .bf16 (divf (shapeCast S4000x128 v0 shapeCasts_S4000x128_S4000x128)
        (broadcastTo S4000x128 (shapeCast S4000x1 v2 shapeCasts_S4000x1_S4000x1) broadcasts_S4000x1_S4000x128)) bitsLt_bf16_f32
      : FVec Ideal S4000x128 .bf16) (ix2 p k) = Ideal.div (v0 (ix2 p k)) (v2 (ix2 p (0 : Fin 1))) := by
  show Ideal.div (shapeCast S4000x128 v0 shapeCasts_S4000x128_S4000x128 (ix2 p k))
      (broadcastTo S4000x128 (shapeCast S4000x1 v2 shapeCasts_S4000x1_S4000x1) broadcasts_S4000x1_S4000x128 (ix2 p k)) = _
  rw [shapeCast_self, shapeCast_self, Idealize.ShloMosaic.Keepdims.broadcastTo_a1_ab_apply]

/-- The first kernel's stored value at an entry. -/
theorem k0_pay1_apply (v0 : Vec Ideal S4000x128 .f32) (v2 : Vec Ideal S4000x1 .f32) (v7 : Vec Ideal S4000x128 .f32)
    (v9 v11 : Vec Ideal S128x128 .f32) (v16 : Vec Ideal S1x128 .f32) (p : Fin 4000) (q : Fin 128) :
    k0_pay1 (F := Ideal) v0 v2 v7 v9 v11 v16 (ix2 p q) = max (layerAt v0 v2 v7 v9 v11 v16 p q) zz := by
  unfold k0_pay1
  rw [maximumf_apply, addf_apply, addf_apply]
  refine congrArg₂ max (congrArg₂ (· + ·) (congrArg₂ (· + ·) ?_ ?_) ?_) rfl
  · refine (Cert.PlainDot.matmul_zero_apply dot_S4000x128_S128x128_S4000x128_1_0_0_1_n_n rfl none _ _ p q).trans
      (Finset.sum_congr rfl fun k _ => ?_)
    exact congrArg (· * v9 (ix2 k q)) (mean_apply v0 v2 p k)
  · exact Cert.PlainDot.matmul_zero_apply dot_S4000x128_S128x128_S4000x128_1_0_0_1_n_n rfl none _ _ p q
  · exact (Cert.RowVector.broadcastTo_row (by decide) _ _ p q).trans (congrFun (shapeCast_self _ _) _)

/-- The second kernel's first stored value at an entry: the layer, not cut off. -/
theorem k1_pay2_apply (v0 : Vec Ideal S4000x128 .f32) (v2 : Vec Ideal S4000x1 .f32) (v7 : Vec Ideal S4000x128 .f32)
    (v10 v12 : Vec Ideal S128x128 .f32) (v17 : Vec Ideal S1x128 .f32) (p : Fin 4000) (q : Fin 128) :
    k1_pay2 (F := Ideal) v0 v2 v7 v10 v12 v17 (ix2 p q) = layerAt v0 v2 v7 v10 v12 v17 p q := by
  unfold k1_pay2
  rw [addf_apply, addf_apply]
  refine congrArg₂ (· + ·) (congrArg₂ (· + ·) ?_ ?_) ?_
  · refine (Cert.PlainDot.matmul_zero_apply dot_S4000x128_S128x128_S4000x128_1_0_0_1_n_n rfl none _ _ p q).trans
      (Finset.sum_congr rfl fun k _ => ?_)
    exact congrArg (· * v10 (ix2 k q)) (mean_apply v0 v2 p k)
  · refine (Cert.PlainDot.matmul_zero_apply dot_S4000x128_S128x128_S4000x128_1_0_0_1_n_n rfl none _ _ p q).trans
      (Finset.sum_congr rfl fun k _ => ?_)
    exact congrArg (· * v12 (ix2 k q)) (congrFun (shapeCast_self v7 _) (ix2 p k))
  · exact (Cert.RowVector.broadcastTo_row (by decide) _ _ p q).trans (congrFun (shapeCast_self _ _) _)

/-- A hidden unit of the perceptron inside a block, from the layer's values `L` on the block. -/
def hidBlk (L : Fin 4000 → Fin 128 → EReal) (v25 : Vec Ideal S128x256 .f32) (v28 : Vec Ideal S1x256 .f32)
    (p : Fin 4000) (k : Fin 256) : EReal :=
  max ((∑ j : Fin 128, max (L p j) zz * v25 (ix2 j k)) + v28 (ix2 (0 : Fin 1) k)) zz

/-- The hidden activations the second kernel computes, at an entry. -/
theorem k1_pay3_apply (v0 : Vec Ideal S4000x128 .f32) (v2 : Vec Ideal S4000x1 .f32) (v7 : Vec Ideal S4000x128 .f32)
    (v10 v12 : Vec Ideal S128x128 .f32) (v17 : Vec Ideal S1x128 .f32) (v25 : Vec Ideal S128x256 .f32)
    (v28 : Vec Ideal S1x256 .f32) (p : Fin 4000) (k : Fin 256) :
    k1_pay3 (F := Ideal) v0 v2 v7 v10 v12 v17 v25 v28 (ix2 p k) = hidBlk (layerAt v0 v2 v7 v10 v12 v17) v25 v28 p k := by
  unfold k1_pay3
  rw [truncf_apply, maximumf_apply, addf_apply]
  refine congrArg₂ max (congrArg₂ (· + ·) ?_ ?_) rfl
  · refine (Cert.PlainDot.matmul_zero_apply dot_S4000x128_S128x256_S4000x256_1_0_0_1_n_n rfl none _ _ p k).trans
      (Finset.sum_congr rfl fun j _ => ?_)
    exact congrArg (fun t => max t zz * v25 (ix2 j k)) (k1_pay2_apply v0 v2 v7 v10 v12 v17 p j)
  · exact (Cert.RowVector.broadcastTo_row (by decide) _ _ p k).trans (congrFun (shapeCast_self _ _) _)

/-- The second kernel's second stored value at an entry: the hidden activations through the padded last matrix,
    plus the padded bias row. -/
theorem k1_pay1_apply (v34 : FVec Ideal S4000x256 .bf16) (v35 : Vec Ideal S256x128 .f32) (v39 : Vec Ideal S1x128 .f32)
    (p : Fin 4000) (q : Fin 128) :
    k1_pay1 (F := Ideal) v34 v35 v39 (ix2 p q) = (∑ k : Fin 256, v34 (ix2 p k) * v35 (ix2 k q)) + v39 (ix2 (0 : Fin 1) q) := by
  unfold k1_pay1
  rw [addf_apply]
  refine congrArg₂ (· + ·) ?_ ?_
  · refine (Cert.PlainDot.matmul_zero_apply dot_S4000x256_S256x128_S4000x128_1_0_0_1_n_n rfl none _ _ p q).trans
      (Finset.sum_congr rfl fun k _ => ?_)
    exact congrArg (v34 (ix2 p k) * ·) (congrFun (shapeCast_self v35 _) (ix2 k q))
  · exact (Cert.RowVector.broadcastTo_row (by decide) _ _ p q).trans (congrFun (shapeCast_self _ _) _)

end Cert.Sage

end
-- ==== Proof.Region0.lean ====
/-
  The first kernel's output array after its 25 grid points, as one function of the arrays the region is entered with.

  Grid point t stages rows 4000·t … 4000·t + 3999 of the aggregate, of the degree column and of the node features,
  and the two weight matrices and the bias row whole; it writes back the same rows of the output. So row r of
  the output is computed at the point r / 4000 from row r of the inputs, and the blocks tile the array.
-/
import proofs.«139941_j36928128811710_2_alg».proof.Proof.Gen.KernelIdeal.Frame
import proofs.«139941_j36928128811710_2_alg».proof.Proof.Payload

noncomputable section

open scoped BigOperators

namespace Cert.Sage.Reg0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output at node `r`, feature `q`, from the region's entry arrays. -/
def outAt (msg : FVec Ideal S100000x128 .f32) (deg : FVec Ideal S100000x1 .f32) (x : FVec Ideal S100000x128 .f32)
    (Wl : FVec Ideal S128x128 .f32) (b : FVec Ideal S1x128 .f32) (Wr : FVec Ideal S128x128 .f32)
    (r : Fin 100000) (q : Fin 128) : EReal :=
  max ((∑ k : Fin 128, Ideal.div (msg (ix2 r k)) (deg (ix2 r (0 : Fin 1))) * Wl (ix2 k q)) + (∑ k : Fin 128, x (ix2 r k) * Wr (ix2 k q))
    + b (ix2 (0 : Fin 1) q)) zz

/-- The output array. -/
def out (msg : FVec Ideal S100000x128 .f32) (deg : FVec Ideal S100000x1 .f32) (x : FVec Ideal S100000x128 .f32)
    (Wl : FVec Ideal S128x128 .f32) (b : FVec Ideal S1x128 .f32) (Wr : FVec Ideal S128x128 .f32) :
    FVec Ideal S100000x128 .f32 :=
  fun i => outAt msg deg x Wl b Wr (i 0) (i 1)

theorem tlt : ∀ t : Fin cfg0.N, t.val < 25 := (by decide +kernel : ∀ t : Fin grid0.N, _)

/-- The array row that row `p` of block `t` is. -/
def row (t : Fin cfg0.N) (p : Fin 4000) : Fin 100000 :=
  ⟨t.val * 4000 + p.val, by have := tlt t; have := p.isLt; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

/-- Window 0's block at point `t`: rows 4000·t … of its array. -/
theorem blk0 (c : Dev nD) (t : Fin cfg0.N) (p : Fin 4000) (k : Fin 128) :
    iblk0 V c 0 t (ix2 p k) = V c main_v20 (ix2 (row t p) k) := by
  obtain ⟨e0, e1⟩ := idx0 t
  show V c main_v20 (((cfg0.win 0).blk t).view.emb (ix2 p k)) = V c main_v20 (ix2 (row t p) k)
  refine congrArg (V c main_v20) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- Window 1's block at point `t`: rows 4000·t … of its array. -/
theorem blk1 (c : Dev nD) (t : Fin cfg0.N) (p : Fin 4000) (k : Fin 1) :
    iblk0 V c 1 t (ix2 p k) = V c main_v10 (ix2 (row t p) k) := by
  obtain ⟨e0, e1⟩ := idx1 t
  show V c main_v10 (((cfg0.win 1).blk t).view.emb (ix2 p k)) = V c main_v10 (ix2 (row t p) k)
  refine congrArg (V c main_v10) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 1 + 1 * k.val = k.val; rw [e1]; omega

/-- Window 2's block at point `t`: rows 4000·t … of its array. -/
theorem blk2 (c : Dev nD) (t : Fin cfg0.N) (p : Fin 4000) (k : Fin 128) :
    iblk0 V c 2 t (ix2 p k) = V c main_arg0 (ix2 (row t p) k) := by
  obtain ⟨e0, e1⟩ := idx2 t
  show V c main_arg0 (((cfg0.win 2).blk t).view.emb (ix2 p k)) = V c main_arg0 (ix2 (row t p) k)
  refine congrArg (V c main_arg0) (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 128 + 1 * k.val = k.val; rw [e1]; omega

/-- Window 3's block at every point: its whole array. -/
theorem blk3 (c : Dev nD) (t : Fin cfg0.N) (a' : Fin 128) (b' : Fin 128) :
    iblk0 V c 3 t (ix2 a' b') = V c main_arg2 (ix2 a' b') := by
  obtain ⟨e0, e1⟩ := idx3 t
  show V c main_arg2 (((cfg0.win 3).blk t).view.emb (ix2 a' b')) = V c main_arg2 (ix2 a' b')
  refine congrArg (V c main_arg2) (funext fun a => Fin.ext ?_)
  match a with
  | ⟨0, _⟩ => show win0_3.index t (0 : Fin 2) * 128 + 1 * a'.val = a'.val; rw [e0]; omega
  | ⟨1, _⟩ => show win0_3.index t (1 : Fin 2) * 128 + 1 * b'.val = b'.val; rw [e1]; omega

/-- Window 4's block at every point: its whole array. -/
theorem blk4 (c : Dev nD) (t : Fin cfg0.N) (a' : Fin 1) (b' : Fin 128) :
    iblk0 V c 4 t (ix2 a' b') = V c main_v21 (ix2 a' b') := by
  obtain ⟨e0, e1⟩ := idx4 t
  show V c main_v21 (((cfg0.win 4).blk t).view.emb (ix2 a' b')) = V c main_v21 (ix2 a' b')
  refine congrArg (V c main_v21) (funext fun a => Fin.ext ?_)
  match a with
  | ⟨0, _⟩ => show win0_4.index t (0 : Fin 2) * 1 + 1 * a'.val = a'.val; rw [e0]; omega
  | ⟨1, _⟩ => show win0_4.index t (1 : Fin 2) * 128 + 1 * b'.val = b'.val; rw [e1]; omega

/-- Window 5's block at every point: its whole array. -/
theorem blk5 (c : Dev nD) (t : Fin cfg0.N) (a' : Fin 128) (b' : Fin 128) :
    iblk0 V c 5 t (ix2 a' b') = V c main_arg4 (ix2 a' b') := by
  obtain ⟨e0, e1⟩ := idx5 t
  show V c main_arg4 (((cfg0.win 5).blk t).view.emb (ix2 a' b')) = V c main_arg4 (ix2 a' b')
  refine congrArg (V c main_arg4) (funext fun a => Fin.ext ?_)
  match a with
  | ⟨0, _⟩ => show win0_5.index t (0 : Fin 2) * 128 + 1 * a'.val = a'.val; rw [e0]; omega
  | ⟨1, _⟩ => show win0_5.index t (1 : Fin 2) * 128 + 1 * b'.val = b'.val; rw [e1]; omega

/-- Output window 6's block at point `t` sits at rows 4000·t … of its array. -/
theorem emb6 (t : Fin cfg0.N) (p : Fin 4000) (q : Fin 128) :
    ((cfg0.win 6).blk t).view.emb (ix2 p q) = ix2 (row t p) q := by
  obtain ⟨e0, e1⟩ := idx6 t
  refine funext fun a => Fin.ext ?_
  match a with
  | ⟨0, _⟩ => show win0_6.index t (0 : Fin 2) * 4000 + 1 * p.val = t.val * 4000 + p.val; rw [e0]; omega
  | ⟨1, _⟩ => show win0_6.index t (1 : Fin 2) * 128 + 1 * q.val = q.val; rw [e1]; omega

/-- An index of the array is in point `t`'s block of window 6 iff each coordinate is in the block's range. -/
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v22).slice (win0_6.rect t)).set ↔ _
  rw [View.set_slice_whole, Rect.mem_set_unit]
  exact Iff.rfl

/-- Every index of window 6's array is in the block of the point its row belongs to. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : ∀ n, n < 25 → n < cfg0.N := fun n h => by rw [show cfg0.N = 25 from N_0]; exact h
  obtain ⟨t, ht⟩ : ∃ t : Fin cfg0.N, t.val = (i 0).val / 4000 := ⟨⟨(i 0).val / 4000, hN _ (by omega)⟩, rfl⟩
  refine ⟨t, flush0_6 t, ?_⟩
  rw [mem_blk6]
  obtain ⟨e0, e1⟩ := idx6 t
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- What point `t` writes back is block `t` of the output array. -/
theorem flushed_eq (c : Dev nD) (t : Fin cfg0.N) :
    (dat0 V c).flushed 6 t = ((cfg0.win 6).blk t).view.read (Elt Ideal)
      (out (V c main_v20) (V c main_v10) (V c main_arg0) (V c main_arg2) (V c main_v21) (V c main_arg4)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
    = out (V c main_v20) (V c main_v10) (V c main_arg0) (V c main_arg2) (V c main_v21) (V c main_arg4)
        (((cfg0.win 6).blk t).view.emb (ix2 p q))
  rw [emb6]
  refine (k0_pay1_apply (iblk0 V c 0 t) (iblk0 V c 1 t) (iblk0 V c 2 t) (iblk0 V c 3 t) (iblk0 V c 5 t) (iblk0 V c 4 t) p q).trans ?_
  show max (layerAt (iblk0 V c 0 t) (iblk0 V c 1 t) (iblk0 V c 2 t) (iblk0 V c 3 t) (iblk0 V c 5 t) (iblk0 V c 4 t) p q) zz
    = outAt (V c main_v20) (V c main_v10) (V c main_arg0) (V c main_arg2) (V c main_v21) (V c main_arg4) (row t p) q
  unfold layerAt outAt
  simp only [blk0 V c t, blk1 V c t, blk2 V c t, blk3 V c t, blk4 V c t, blk5 V c t]

/-- The output array after the region: the layer, cut off at zero, of the entry arrays. -/
theorem final (c : Dev nD) : (dat0 V c).arrAt 6 cfg0.N
    = out (V c main_v20) (V c main_v10) (V c main_arg0) (V c main_arg2) (V c main_v21) (V c main_arg4) :=
  (dat0 V c).arrAt_eq_of_cover 6 _ (fun t _ => flushed_eq V c t) cover6

end Cert.Sage.Reg0

end
-- ==== Proof.Region1.lean ====
/-
  The second kernel's two output arrays after its 25 grid points, as functions of the arrays the region is entered
  with.

  As in the first kernel, grid point t stages rows 4000·t … 4000·t + 3999 of the aggregate, of the degree column
  and of the first layer's output, and every weight matrix and bias row whole, and writes back the same rows of both
  outputs: the second layer (not cut off), and the perceptron applied to it, its last matrix and bias padded to
  128 columns.
-/
import proofs.«139941_j36928128811710_2_alg».proof.Proof.Gen.KernelIdeal.Frame
import proofs.«139941_j36928128811710_2_alg».proof.Proof.Payload

noncomputable section

open scoped BigOperators

namespace Cert.Sage.Reg1

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer at node `r`, feature `q`, from the region's entry arrays. -/
def layAt (msg : FVec Ideal S100000x128 .f32) (deg : FVec Ideal S100000x1 .f32) (x : FVec Ideal S100000x128 .f32)
    (Wl : FVec Ideal S128x128 .f32) (b : FVec Ideal S1x128 .f32) (Wr : FVec Ideal S128x128 .f32)
    (r : Fin 100000) (q : Fin 128) : EReal :=
  (∑ k : Fin 128, Ideal.div (msg (ix2 r k)) (deg (ix2 r (0 : Fin 1))) * Wl (ix2 k q)) + (∑ k : Fin 128, x (ix2 r k) * Wr (ix2 k q))
    + b (ix2 (0 : Fin 1) q)

/-- The first output array: the layer. -/
def out10 (msg : FVec Ideal S100000x128 .f32) (deg : FVec Ideal S100000x1 .f32) (x : FVec Ideal S100000x128 .f32)
    (Wl : FVec Ideal S128x128 .f32) (b : FVec Ideal S1x128 .f32) (Wr : FVec Ideal S128x128 .f32) :
    FVec Ideal S100000x128 .f32 :=
  fun i => layAt msg deg x Wl b Wr (i 0) (i 1)

/-- A hidden unit of the perceptron at node `r`, from the layer's values `L`. -/
def hidAt (L : Fin 100000 → Fin 128 → EReal) (W1 : FVec Ideal S128x256 .f32) (b1 : FVec Ideal S1x256 .f32)
    (r : Fin 100000) (k : Fin 256) : EReal :=
  max ((∑ j : Fin 128, max (L r j) zz * W1 (ix2 j k)) + b1 (ix2 (0 : Fin 1) k)) zz

/-- The padded perceptron output at node `r`, column `q`. -/
def padAt (L : Fin 100000 → Fin 128 → EReal) (W1 : FVec Ideal S128x256 .f32) (b1 : FVec Ideal S1x256 .f32)
    (W2 : FVec Ideal S256x128 .f32) (b2 : FVec Ideal S1x128 .f32) (r : Fin 100000) (q : Fin 128) : EReal :=
  (∑ k : Fin 256, hidAt L W1 b1 r k * W2 (ix2 k q)) + b2 (ix2 (0 : Fin 1) q)

/-- The second output array: the padded perceptron output. -/
def out11 (msg : FVec Ideal S100000x128 .f32) (deg : FVec Ideal S100000x1 .f32) (x : FVec Ideal S100000x128 .f32)
    (Wl : FVec Ideal S128x128 .f32) (b : FVec Ideal S1x128 .f32) (Wr : FVec Ideal S128x128 .f32)
    (W1 : FVec Ideal S128x256 .f32) (b1 : FVec Ideal S1x256 .f32) (W2 : FVec Ideal S256x128 .f32) (b2 : FVec Ideal S1x128 .f32) :
    FVec Ideal S100000x128 .f32 :=
  fun i => padAt (layAt msg deg x Wl b Wr) W1 b1 W2 b2 (i 0) (i 1)

theorem tlt : ∀ t : Fin cfg1.N, t.val < 25 := (by decide +kernel : ∀ t : Fin grid1.N, _)

/-- The array row that row `p` of block `t` is. -/
def row (t : Fin cfg1.N) (p : Fin 4000) : Fin 100000 :=
  ⟨t.val * 4000 + p.val, by have := tlt t; have := p.isLt; omega⟩

theorem idx0 : ∀ t : Fin cfg1.N, win1_0.index t (0 : Fin 2) = t.val ∧ win1_0.index t (1 : Fin 2) = 0 :=
  (by decide +kernel : ∀ t : Fin grid1.N, _)

theorem idx1 : ∀ t : Fin cfg1.N, win1_1.index t (0 : Fin 2) = t.val ∧ win1_1.index t (1 : Fin 2) = 0 :=
  (by decide +kernel : ∀ t : Fin grid1.N, _)

theorem idx2 : ∀ t : Fin cfg1.N, win1_2.index t (0 : Fin 2) = t.val ∧ win1_2.index t (1 : Fin 2) = 0 :=
  (by decide +kernel : ∀ t : Fin grid1.N, _)

theorem idx3 : ∀ t : Fin cfg1.N, win1_3.index t (0 : Fin 2) = 0 ∧ win1_3.index t (1 : Fin 2) = 0 :=
  (by decide +kernel : ∀ t : Fin grid1.N, _)

theorem idx4 : ∀ t : Fin cfg1.N, win1_4.index t (0 : Fin 2) = 0 ∧ win1_4.index t (1 : Fin 2) = 0 :=
  (by decide +kernel : ∀ t : Fin grid1.N, _)

theorem idx5 : ∀ t : Fin cfg1.N, win1_5.index t (0 : Fin 2) = 0 ∧ win1_5.index t (1 : Fin 2) = 0 :=
  (by decide +kernel : ∀ t : Fin grid1.N, _)

theorem idx6 : ∀ t : Fin cfg1.N, win1_6.index t (0 : Fin 2) = 0 ∧ win1_6.index t (1 : Fin 2) = 0 :=
  (by decide +kernel : ∀ t : Fin grid1.N, _)

theorem idx7 : ∀ t : Fin cfg1.N, win1_7.index t (0 : Fin 2) = 0 ∧ win1_7.index t (1 : Fin 2) = 0 :=
  (by decide +kernel : ∀ t : Fin grid1.N, _)

theorem idx8 : ∀ t : Fin cfg1.N, win1_8.index t (0 : Fin 2) = 0 ∧ win1_8.index t (1 : Fin 2) = 0 :=
  (by decide +kernel : ∀ t : Fin grid1.N, _)

theorem idx9 : ∀ t : Fin cfg1.N, win1_9.index t (0 : Fin 2) = 0 ∧ win1_9.index t (1 : Fin 2) = 0 :=
  (by decide +kernel : ∀ t : Fin grid1.N, _)

theorem idx10 : ∀ t : Fin cfg1.N, win1_10.index t (0 : Fin 2) = t.val ∧ win1_10.index t (1 : Fin 2) = 0 :=
  (by decide +kernel : ∀ t : Fin grid1.N, _)

theorem idx11 : ∀ t : Fin cfg1.N, win1_11.index t (0 : Fin 2) = t.val ∧ win1_11.index t (1 : Fin 2) = 0 :=
  (by decide +kernel : ∀ t : Fin grid1.N, _)

/-- Window 0's block at point `t`: rows 4000·t … of its array. -/
theorem blk0 (c : Dev nD) (t : Fin cfg1.N) (p : Fin 4000) (k : Fin 128) :
    iblk1 V c 0 t (ix2 p k) = V c main_v32 (ix2 (row t p) k) := by
  obtain ⟨e0, e1⟩ := idx0 t
  show V c main_v32 (((cfg1.win 0).blk t).view.emb (ix2 p k)) = V c main_v32 (ix2 (row t p) k)
  refine congrArg (V c main_v32) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- Window 1's block at point `t`: rows 4000·t … of its array. -/
theorem blk1 (c : Dev nD) (t : Fin cfg1.N) (p : Fin 4000) (k : Fin 1) :
    iblk1 V c 1 t (ix2 p k) = V c main_v10 (ix2 (row t p) k) := by
  obtain ⟨e0, e1⟩ := idx1 t
  show V c main_v10 (((cfg1.win 1).blk t).view.emb (ix2 p k)) = V c main_v10 (ix2 (row t p) k)
  refine congrArg (V c main_v10) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 1 + 1 * k.val = k.val; rw [e1]; omega

/-- Window 2's block at point `t`: rows 4000·t … of its array. -/
theorem blk2 (c : Dev nD) (t : Fin cfg1.N) (p : Fin 4000) (k : Fin 128) :
    iblk1 V c 2 t (ix2 p k) = V c main_v22 (ix2 (row t p) k) := by
  obtain ⟨e0, e1⟩ := idx2 t
  show V c main_v22 (((cfg1.win 2).blk t).view.emb (ix2 p k)) = V c main_v22 (ix2 (row t p) k)
  refine congrArg (V c main_v22) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

/-- Window 3's block at every point: its whole array. -/
theorem blk3 (c : Dev nD) (t : Fin cfg1.N) (a' : Fin 128) (b' : Fin 128) :
    iblk1 V c 3 t (ix2 a' b') = V c main_arg5 (ix2 a' b') := by
  obtain ⟨e0, e1⟩ := idx3 t
  show V c main_arg5 (((cfg1.win 3).blk t).view.emb (ix2 a' b')) = V c main_arg5 (ix2 a' b')
  refine congrArg (V c main_arg5) (funext fun a => Fin.ext ?_)
  match a with
  | ⟨0, _⟩ => show win1_3.index t (0 : Fin 2) * 128 + 1 * a'.val = a'.val; rw [e0]; omega
  | ⟨1, _⟩ => show win1_3.index t (1 : Fin 2) * 128 + 1 * b'.val = b'.val; rw [e1]; omega

/-- Window 4's block at every point: its whole array. -/
theorem blk4 (c : Dev nD) (t : Fin cfg1.N) (a' : Fin 1) (b' : Fin 128) :
    iblk1 V c 4 t (ix2 a' b') = V c main_v36 (ix2 a' b') := by
  obtain ⟨e0, e1⟩ := idx4 t
  show V c main_v36 (((cfg1.win 4).blk t).view.emb (ix2 a' b')) = V c main_v36 (ix2 a' b')
  refine congrArg (V c main_v36) (funext fun a => Fin.ext ?_)
  match a with
  | ⟨0, _⟩ => show win1_4.index t (0 : Fin 2) * 1 + 1 * a'.val = a'.val; rw [e0]; omega
  | ⟨1, _⟩ => show win1_4.index t (1 : Fin 2) * 128 + 1 * b'.val = b'.val; rw [e1]; omega

/-- Window 5's block at every point: its whole array. -/
theorem blk5 (c : Dev nD) (t : Fin cfg1.N) (a' : Fin 128) (b' : Fin 128) :
    iblk1 V c 5 t (ix2 a' b') = V c main_arg7 (ix2 a' b') := by
  obtain ⟨e0, e1⟩ := idx5 t
  show V c main_arg7 (((cfg1.win 5).blk t).view.emb (ix2 a' b')) = V c main_arg7 (ix2 a' b')
  refine congrArg (V c main_arg7) (funext fun a => Fin.ext ?_)
  match a with
  | ⟨0, _⟩ => show win1_5.index t (0 : Fin 2) * 128 + 1 * a'.val = a'.val; rw [e0]; omega
  | ⟨1, _⟩ => show win1_5.index t (1 : Fin 2) * 128 + 1 * b'.val = b'.val; rw [e1]; omega

/-- Window 6's block at every point: its whole array. -/
theorem blk6 (c : Dev nD) (t : Fin cfg1.N) (a' : Fin 128) (b' : Fin 256) :
    iblk1 V c 6 t (ix2 a' b') = V c main_arg8 (ix2 a' b') := by
  obtain ⟨e0, e1⟩ := idx6 t
  show V c main_arg8 (((cfg1.win 6).blk t).view.emb (ix2 a' b')) = V c main_arg8 (ix2 a' b')
  refine congrArg (V c main_arg8) (funext fun a => Fin.ext ?_)
  match a with
  | ⟨0, _⟩ => show win1_6.index t (0 : Fin 2) * 128 + 1 * a'.val = a'.val; rw [e0]; omega
  | ⟨1, _⟩ => show win1_6.index t (1 : Fin 2) * 256 + 1 * b'.val = b'.val; rw [e1]; omega

/-- Window 7's block at every point: its whole array. -/
theorem blk7 (c : Dev nD) (t : Fin cfg1.N) (a' : Fin 1) (b' : Fin 256) :
    iblk1 V c 7 t (ix2 a' b') = V c main_v37 (ix2 a' b') := by
  obtain ⟨e0, e1⟩ := idx7 t
  show V c main_v37 (((cfg1.win 7).blk t).view.emb (ix2 a' b')) = V c main_v37 (ix2 a' b')
  refine congrArg (V c main_v37) (funext fun a => Fin.ext ?_)
  match a with
  | ⟨0, _⟩ => show win1_7.index t (0 : Fin 2) * 1 + 1 * a'.val = a'.val; rw [e0]; omega
  | ⟨1, _⟩ => show win1_7.index t (1 : Fin 2) * 256 + 1 * b'.val = b'.val; rw [e1]; omega

/-- Window 8's block at every point: its whole array. -/
theorem blk8 (c : Dev nD) (t : Fin cfg1.N) (a' : Fin 256) (b' : Fin 128) :
    iblk1 V c 8 t (ix2 a' b') = V c main_v33 (ix2 a' b') := by
  obtain ⟨e0, e1⟩ := idx8 t
  show V c main_v33 (((cfg1.win 8).blk t).view.emb (ix2 a' b')) = V c main_v33 (ix2 a' b')
  refine congrArg (V c main_v33) (funext fun a => Fin.ext ?_)
  match a with
  | ⟨0, _⟩ => show win1_8.index t (0 : Fin 2) * 256 + 1 * a'.val = a'.val; rw [e0]; omega
  | ⟨1, _⟩ => show win1_8.index t (1 : Fin 2) * 128 + 1 * b'.val = b'.val; rw [e1]; omega

/-- Window 9's block at every point: its whole array. -/
theorem blk9 (c : Dev nD) (t : Fin cfg1.N) (a' : Fin 1) (b' : Fin 128) :
    iblk1 V c 9 t (ix2 a' b') = V c main_v35 (ix2 a' b') := by
  obtain ⟨e0, e1⟩ := idx9 t
  show V c main_v35 (((cfg1.win 9).blk t).view.emb (ix2 a' b')) = V c main_v35 (ix2 a' b')
  refine congrArg (V c main_v35) (funext fun a => Fin.ext ?_)
  match a with
  | ⟨0, _⟩ => show win1_9.index t (0 : Fin 2) * 1 + 1 * a'.val = a'.val; rw [e0]; omega
  | ⟨1, _⟩ => show win1_9.index t (1 : Fin 2) * 128 + 1 * b'.val = b'.val; rw [e1]; omega

/-- Output window 10's block at point `t` sits at rows 4000·t … of its array. -/
theorem emb10 (t : Fin cfg1.N) (p : Fin 4000) (q : Fin 128) :
    ((cfg1.win 10).blk t).view.emb (ix2 p q) = ix2 (row t p) q := by
  obtain ⟨e0, e1⟩ := idx10 t
  refine funext fun a => Fin.ext ?_
  match a with
  | ⟨0, _⟩ => show win1_10.index t (0 : Fin 2) * 4000 + 1 * p.val = t.val * 4000 + p.val; rw [e0]; omega
  | ⟨1, _⟩ => show win1_10.index t (1 : Fin 2) * 128 + 1 * q.val = q.val; rw [e1]; omega

/-- An index of the array is in point `t`'s block of window 10 iff each coordinate is in the block's range. -/
theorem mem_blk10 (t : Fin cfg1.N) (i : S100000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v38_0).slice (win1_10.rect t)).set ↔ _
  rw [View.set_slice_whole, Rect.mem_set_unit]
  exact Iff.rfl

/-- Every index of window 10's array is in the block of the point its row belongs to. -/
theorem cover10 (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : ∀ n, n < 25 → n < cfg1.N := fun n h => by rw [show cfg1.N = 25 from N_1]; exact h
  obtain ⟨t, ht⟩ : ∃ t : Fin cfg1.N, t.val = (i 0).val / 4000 := ⟨⟨(i 0).val / 4000, hN _ (by omega)⟩, rfl⟩
  refine ⟨t, flush1_10 t, ?_⟩
  rw [mem_blk10]
  obtain ⟨e0, e1⟩ := idx10 t
  intro a
  match a with
  | ⟨0, _⟩ => show win1_10.index t (0 : Fin 2) * 4000 ≤ (i 0).val ∧ (i 0).val < win1_10.index t (0 : Fin 2) * 4000 + 4000; rw [e0, ht]; omega
  | ⟨1, _⟩ => show win1_10.index t (1 : Fin 2) * 128 ≤ (i 1).val ∧ (i 1).val < win1_10.index t (1 : Fin 2) * 128 + 128; rw [e1]; omega

/-- Output window 11's block at point `t` sits at rows 4000·t … of its array. -/
theorem emb11 (t : Fin cfg1.N) (p : Fin 4000) (q : Fin 128) :
    ((cfg1.win 11).blk t).view.emb (ix2 p q) = ix2 (row t p) q := by
  obtain ⟨e0, e1⟩ := idx11 t
  refine funext fun a => Fin.ext ?_
  match a with
  | ⟨0, _⟩ => show win1_11.index t (0 : Fin 2) * 4000 + 1 * p.val = t.val * 4000 + p.val; rw [e0]; omega
  | ⟨1, _⟩ => show win1_11.index t (1 : Fin 2) * 128 + 1 * q.val = q.val; rw [e1]; omega

/-- An index of the array is in point `t`'s block of window 11 iff each coordinate is in the block's range. -/
theorem mem_blk11 (t : Fin cfg1.N) (i : S100000x128.Idx) :
    i ∈ ((cfg1.win 11).blk t).view.set ↔ ∀ a : Fin 2, win1_11.index t a * S4000x128.size a ≤ (i a).val ∧ (i a).val < win1_11.index t a * S4000x128.size a + S4000x128.size a := by
  show i ∈ ((View.whole main_v38_1).slice (win1_11.rect t)).set ↔ _
  rw [View.set_slice_whole, Rect.mem_set_unit]
  exact Iff.rfl

/-- Every index of window 11's array is in the block of the point its row belongs to. -/
theorem cover11 (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  have hN : ∀ n, n < 25 → n < cfg1.N := fun n h => by rw [show cfg1.N = 25 from N_1]; exact h
  obtain ⟨t, ht⟩ : ∃ t : Fin cfg1.N, t.val = (i 0).val / 4000 := ⟨⟨(i 0).val / 4000, hN _ (by omega)⟩, rfl⟩
  refine ⟨t, flush1_11 t, ?_⟩
  rw [mem_blk11]
  obtain ⟨e0, e1⟩ := idx11 t
  intro a
  match a with
  | ⟨0, _⟩ => show win1_11.index t (0 : Fin 2) * 4000 ≤ (i 0).val ∧ (i 0).val < win1_11.index t (0 : Fin 2) * 4000 + 4000; rw [e0, ht]; omega
  | ⟨1, _⟩ => show win1_11.index t (1 : Fin 2) * 128 ≤ (i 1).val ∧ (i 1).val < win1_11.index t (1 : Fin 2) * 128 + 128; rw [e1]; omega

/-- The layer inside block `t` is the layer of the arrays at the block's rows. -/
theorem layer_blk (c : Dev nD) (t : Fin cfg1.N) (p : Fin 4000) (q : Fin 128) :
    layerAt (iblk1 V c 0 t) (iblk1 V c 1 t) (iblk1 V c 2 t) (iblk1 V c 3 t) (iblk1 V c 5 t) (iblk1 V c 4 t) p q = layAt (V c main_v32) (V c main_v10) (V c main_v22) (V c main_arg5) (V c main_v36) (V c main_arg7) (row t p) q := by
  unfold layerAt layAt
  simp only [blk0 V c t, blk1 V c t, blk2 V c t, blk3 V c t, blk4 V c t, blk5 V c t]

/-- What point `t` writes back to the first output is block `t` of the layer. -/
theorem flushed_eq10 (c : Dev nD) (t : Fin cfg1.N) :
    (dat1 V c).flushed 10 t = ((cfg1.win 10).blk t).view.read (Elt Ideal) (out10 (V c main_v32) (V c main_v10) (V c main_v22) (V c main_arg5) (V c main_v36) (V c main_arg7)) := by
  show (cfg1.win 10).cut (grid1.coords t) ((dat1 V c).after 10 t) = _
  rw [after1_10]
  unfold out1_10
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨p, q, rfl⟩ : ∃ (p : Fin 4000) (q : Fin 128), j = ix2 p q := ⟨j 0, j 1, eq_ix2 j⟩
  show k1_pay2 (F := Ideal) (iblk1 V c 0 t) (iblk1 V c 1 t) (iblk1 V c 2 t) (iblk1 V c 3 t) (iblk1 V c 5 t) (iblk1 V c 4 t) (ix2 p q) = out10 (V c main_v32) (V c main_v10) (V c main_v22) (V c main_arg5) (V c main_v36) (V c main_arg7) (((cfg1.win 10).blk t).view.emb (ix2 p q))
  rw [emb10]
  exact (k1_pay2_apply (iblk1 V c 0 t) (iblk1 V c 1 t) (iblk1 V c 2 t) (iblk1 V c 3 t) (iblk1 V c 5 t) (iblk1 V c 4 t) p q).trans (layer_blk V c t p q)

/-- The first output array after the region. -/
theorem final10 (c : Dev nD) : (dat1 V c).arrAt 10 cfg1.N = out10 (V c main_v32) (V c main_v10) (V c main_v22) (V c main_arg5) (V c main_v36) (V c main_arg7) :=
  (dat1 V c).arrAt_eq_of_cover 10 _ (fun t _ => flushed_eq10 V c t) cover10

/-- What point `t` writes back to the second output is block `t` of the padded perceptron output. -/
theorem flushed_eq11 (c : Dev nD) (t : Fin cfg1.N) :
    (dat1 V c).flushed 11 t = ((cfg1.win 11).blk t).view.read (Elt Ideal)
      (out11 (V c main_v32) (V c main_v10) (V c main_v22) (V c main_arg5) (V c main_v36) (V c main_arg7) (V c main_arg8) (V c main_v37) (V c main_v33) (V c main_v35)) := by
  show (cfg1.win 11).cut (grid1.coords t) ((dat1 V c).after 11 t) = _
  rw [after1_11]
  unfold out1_11
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x256) hz, View.ld_unit_zero (S := S1x256) hz,
    View.ld_unit_zero (S := S256x128) hz]
  funext j
  obtain ⟨p, q, rfl⟩ : ∃ (p : Fin 4000) (q : Fin 128), j = ix2 p q := ⟨j 0, j 1, eq_ix2 j⟩
  show k1_pay1 (F := Ideal) (k1_pay3 (iblk1 V c 0 t) (iblk1 V c 1 t) (iblk1 V c 2 t) (iblk1 V c 3 t) (iblk1 V c 5 t) (iblk1 V c 4 t) (iblk1 V c 6 t) (iblk1 V c 7 t)) (iblk1 V c 8 t) (iblk1 V c 9 t) (ix2 p q)
    = out11 (V c main_v32) (V c main_v10) (V c main_v22) (V c main_arg5) (V c main_v36) (V c main_arg7) (V c main_arg8) (V c main_v37) (V c main_v33) (V c main_v35) (((cfg1.win 11).blk t).view.emb (ix2 p q))
  rw [emb11]
  refine (k1_pay1_apply (k1_pay3 (iblk1 V c 0 t) (iblk1 V c 1 t) (iblk1 V c 2 t) (iblk1 V c 3 t) (iblk1 V c 5 t) (iblk1 V c 4 t) (iblk1 V c 6 t) (iblk1 V c 7 t)) (iblk1 V c 8 t) (iblk1 V c 9 t) p q).trans ?_
  show _ = padAt (layAt (V c main_v32) (V c main_v10) (V c main_v22) (V c main_arg5) (V c main_v36) (V c main_arg7)) (V c main_arg8) (V c main_v37) (V c main_v33) (V c main_v35) (row t p) q
  unfold padAt
  refine congrArg₂ (· + ·) (Finset.sum_congr rfl fun k _ => congrArg₂ (· * ·) ?_ (blk8 V c t k q)) (blk9 V c t 0 q)
  refine (k1_pay3_apply (iblk1 V c 0 t) (iblk1 V c 1 t) (iblk1 V c 2 t) (iblk1 V c 3 t) (iblk1 V c 5 t) (iblk1 V c 4 t) (iblk1 V c 6 t) (iblk1 V c 7 t) p k).trans ?_
  unfold hidBlk hidAt
  simp only [layer_blk V c t, blk6 V c t, blk7 V c t]

/-- The second output array after the region. -/
theorem final11 (c : Dev nD) : (dat1 V c).arrAt 11 cfg1.N
    = out11 (V c main_v32) (V c main_v10) (V c main_v22) (V c main_arg5) (V c main_v36) (V c main_arg7) (V c main_arg8) (V c main_v37) (V c main_v33) (V c main_v35) :=
  (dat1 V c).arrAt_eq_of_cover 11 _ (fun t _ => flushed_eq11 V c t) cover11

end Cert.Sage.Reg1

end
-- ==== Proof.KValue.lean ====
/-
  The idealized kernel's two results are the specification's functions of its arguments.

  The first region's output is the first layer: its degree column is the clamped in-degree cast to a column and its
  bias row the bias cast to a row, so the block form of the layer is the specification's. The second region is
  entered with the aggregate of that output; its first output is the second layer, and column 0 of its second
  output — the only column the final slice keeps — is the perceptron's output, the padded last matrix and bias
  agreeing with the unpadded ones on column 0.
-/
import proofs.«139941_j36928128811710_2_alg».proof.Proof.KHost0
import proofs.«139941_j36928128811710_2_alg».proof.Proof.KHostW
import proofs.«139941_j36928128811710_2_alg».proof.Proof.KHost1
import proofs.«139941_j36928128811710_2_alg».proof.Proof.Region0
import proofs.«139941_j36928128811710_2_alg».proof.Proof.Region1
import Idealize.ShloMosaic.Lib.KernelVsHost

set_option maxRecDepth 16384

noncomputable section

open scoped BigOperators

namespace Cert.Sage.KValue

open Idealize.ShloMosaic Idealize.ShloMosaic.TcCoe Idealize.ShloMosaic.ValueIdx Idealize.SL.Sem
open Cert.KernelIdeal Cert.KernelIdeal.Gen Cert.Sage
open Cert.Sage.KHost0 Cert.Sage.KHostW Cert.Sage.KHost1

/-! ## The block form of a layer is the specification's -/

/-- With the degree as a column and the bias as a row, the layer read off the region's arrays is the specification's. -/
theorem lay_spec (M x : FVec Ideal S100000x128 .f32) (d : FVec Ideal S100000 .f32) (Wl Wr : FVec Ideal S128x128 .f32)
    (b : FVec Ideal S128 .f32) (r : Fin 100000) (q : Fin 128) :
    Reg1.layAt M (shapeCast S100000x1 d shapeCasts_S100000_S100000x1) x Wl (shapeCast S1x128 b shapeCasts_S128_S1x128) Wr r q
      = sageAt M x d Wl Wr b r q := by
  unfold Reg1.layAt sageAt
  rw [Idealize.ShloMosaic.Keepdims.shapeCast_a_a1_apply, Cert.RowVector.shapeCast_row]

/-- The first region's output array is the first layer. -/
theorem out0_spec (x : FVec Ideal S100000x128 .f32) (e : IVec S2x1600000 32) (Wl Wr : FVec Ideal S128x128 .f32)
    (b : FVec Ideal S128 .f32) :
    Reg0.out (agg x e) (shapeCast S100000x1 (degc e) shapeCasts_S100000_S100000x1) x Wl
      (shapeCast S1x128 b shapeCasts_S128_S1x128) Wr = h0 x e Wl Wr b := by
  funext i
  obtain ⟨r, q, rfl⟩ : ∃ (r : Fin 100000) (q : Fin 128), i = ix2 r q := ⟨i 0, i 1, eq_ix2 i⟩
  exact congrArg (fun t => max t z) (lay_spec (agg x e) x (degc e) Wl Wr b r q)

/-- The second region's first output array is the second layer. -/
theorem out10_spec (M x : FVec Ideal S100000x128 .f32) (d : FVec Ideal S100000 .f32) (Wl Wr : FVec Ideal S128x128 .f32)
    (b : FVec Ideal S128 .f32) :
    Reg1.out10 M (shapeCast S100000x1 d shapeCasts_S100000_S100000x1) x Wl (shapeCast S1x128 b shapeCasts_S128_S1x128) Wr
      = sage M x d Wl Wr b := by
  funext i
  obtain ⟨r, q, rfl⟩ : ∃ (r : Fin 100000) (q : Fin 128), i = ix2 r q := ⟨i 0, i 1, eq_ix2 i⟩
  exact lay_spec M x d Wl Wr b r q

/-- Column 0 of the second region's second output array is the perceptron's output. -/
theorem out11_spec (M x : FVec Ideal S100000x128 .f32) (d : FVec Ideal S100000 .f32) (Wl Wr : FVec Ideal S128x128 .f32)
    (b : FVec Ideal S128 .f32) (W1 : FVec Ideal S128x256 .f32) (b1 : FVec Ideal S256 .f32) (W2 : FVec Ideal S256x1 .f32)
    (b2 : FVec Ideal S1 .f32) :
    extractStridedSlice S100000x1 ![0, 0]
      (Reg1.out11 M (shapeCast S100000x1 d shapeCasts_S100000_S100000x1) x Wl (shapeCast S1x128 b shapeCasts_S128_S1x128) Wr W1
        (shapeCast S1x256 b1 shapeCasts_S256_S1x256)
        (pad S256x128 ![0, 0] ![0, 127] ![0, 0] W2 (sitofp (F := Ideal) .f32 (constantI S_ 32 0#32)) pads_S256x1_S256x128_000_01270 h_S_)
        (pad S1x128 ![0, 0] ![0, 127] ![0, 0] (shapeCast S1x1 b2 shapeCasts_S1_S1x1) (sitofp (F := Ideal) .f32 (constantI S_ 32 0#32))
          pads_S1x1_S1x128_000_01270 h_S_))
      slices_S100000x128_S100000x1_0_0
      = pred (sage M x d Wl Wr b) W1 b1 W2 b2 := by
  funext i
  obtain ⟨r, u, rfl⟩ : ∃ (r : Fin 100000) (u : Fin 1), i = ix2 r u := ⟨i 0, i 1, eq_ix2 i⟩
  obtain rfl : u = 0 := Subsingleton.elim _ _
  refine (extractStridedSlice_apply _ _ _ (ix2 r (0 : Fin 1)) (ix2 r (0 : Fin 128)) (fun a => by
    match a with
    | ⟨0, _⟩ => show r.val = 0 + r.val; omega
    | ⟨1, _⟩ => rfl)).trans ?_
  show Reg1.padAt _ W1 _ _ _ r (0 : Fin 128) = predAt (sage M x d Wl Wr b) W1 b1 W2 b2 r
  unfold Reg1.padAt predAt
  refine congrArg₂ (· + ·) (Finset.sum_congr rfl fun k _ => congrArg₂ (· * ·) ?_ ?_) ?_
  · unfold Reg1.hidAt hidAt
    rw [Cert.RowVector.shapeCast_row]
    refine congrArg (fun t => max (t + b1 (ix1 k)) z) (Finset.sum_congr rfl fun j _ => ?_)
    exact congrArg (fun t => max t z * W1 (ix2 j k)) (lay_spec M x d Wl Wr b r j)
  · exact pad_apply_of_inside _ _ _ W2 _ _ _ (ix2 k (0 : Fin 128)) (ix2 k (0 : Fin 1)) (fun a => by
      match a with
      | ⟨0, _⟩ => show k.val = 0 + k.val * (0 + 1); omega
      | ⟨1, _⟩ => rfl)
  · refine (pad_apply_of_inside _ _ _ (shapeCast S1x1 b2 shapeCasts_S1_S1x1) _ _ _ (ix2 (0 : Fin 1) (0 : Fin 128))
      (ix2 (0 : Fin 1) (0 : Fin 1)) (fun a => by
        match a with
        | ⟨0, _⟩ => rfl
        | ⟨1, _⟩ => rfl)).trans ?_
    exact Cert.RowVector.shapeCast_row b2 _ (0 : Fin 1)

/-! ## The results -/

variable (m : (ℓ : Loc nD τ sig) → Buf (Elt Ideal) ℓ) (ρ : Dev nD → PrngReg)

/-- The first region leaves the first layer in its output. -/
theorem W2_v22 (c : Dev nD) : W2 m ρ c (Proc.devRef .tc main_v22) = (h0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3))) := by
  refine (W2_arr m ρ c 6).trans ((Reg0.final (V1 m ρ) c).trans ?_)
  rw [V1_v20, V1_v10, V1_arg0, V1_arg2, V1_v21, V1_arg4]
  exact out0_spec _ _ _ _ _

/-- The first region leaves the degree column as it found it. -/
theorem W2_v10 (c : Dev nD) : W2 m ρ c (Proc.devRef .tc main_v10)
    = shapeCast S100000x1 (degc (m ((c.tc : Thread nD τ).loc main_arg1))) shapeCasts_S100000_S100000x1 :=
  (W2_arr m ρ c 1).trans (((dat0 (V1 m ρ) c).arrAt_in 1 rfl _).trans ((A_eq0 (V1 m ρ) c 1).trans (V1_v10 m ρ c)))

/-- The first result. -/
theorem res0 (c : Dev nD) : W9 m ρ c (Proc.devRef .tc main_v38_0) = (emb (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6))) := by
  refine (W9_v38_0 m ρ c).trans ((W8_arr m ρ c 10).trans ((Reg1.final10 (V7 m ρ) c).trans ?_))
  rw [V7_v32, V7_v10, V7_v22, V7_arg5, V7_v36, V7_arg7, W2_v22, W2_v10, W2_v1, W2_v3, W2_arg5, W2_arg6, W2_arg7]
  exact out10_spec _ _ _ _ _ _

/-- The second result. -/
theorem res1 (c : Dev nD) : W9 m ρ c (Proc.devRef .tc main_v39)
    = pred (emb (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6))) (m ((c.tc : Thread nD τ).loc main_arg8)) (m ((c.tc : Thread nD τ).loc main_arg9)) (m ((c.tc : Thread nD τ).loc main_arg10)) (m ((c.tc : Thread nD τ).loc main_arg11)) := by
  refine (W9_v39 m ρ c).trans ?_
  rw [W8_arr m ρ c 11, Reg1.final11 (V7 m ρ) c]
  rw [V7_v32, V7_v10, V7_v22, V7_arg5, V7_v36, V7_arg7, V7_arg8, V7_v37, V7_v33, V7_v35, W2_v22, W2_v10, W2_v1, W2_v3, W2_arg5,
    W2_arg6, W2_arg7, W2_arg8, W2_arg9, W2_arg10, W2_arg11]
  exact out11_spec _ _ _ _ _ _ _ _ _ _

end Cert.Sage.KValue

end
-- ==== Proof.RefValue.lean ====
/-
  The reference's two results are the specification's functions of its arguments.

  The reference spells a layer as (mean · Wl + b) + x · Wr; the specification as (mean · Wl + x · Wr) + b: the same
  extended real, addition being commutative and associative there. Its mean divides the aggregate by the clamped
  in-degree carried to every lane by two broadcasts; its biases are rows broadcast down the nodes; its matrix
  products are sums over the contracted coordinate.
-/
import proofs.«139941_j36928128811710_2_alg».proof.Proof.Gen.ReferenceIdeal.Read
import proofs.«139941_j36928128811710_2_alg».proof.Proof.Spec

set_option maxHeartbeats 400000

noncomputable section

open scoped BigOperators

namespace Cert.Sage.Ref

open Idealize.ShloMosaic Idealize.ShloMosaic.ValueIdx Cert.Sage
open Cert.ReferenceIdeal Cert.ReferenceIdeal.Gen Cert.ReferenceIdeal.Read

/-- The reference's first aggregate is the specification's. -/
theorem v13_eq (x0 : FVec Ideal S100000x128 .f32) (x1 : IVec S2x1600000 32) :
    val_main_v13 (F := Ideal) x0 x1 = agg x0 x1 := rfl

/-- The reference's clamped in-degree (computed for the first layer) is the specification's. -/
theorem v19_eq (x1 : IVec S2x1600000 32) : val_main_v19 (F := Ideal) x1 = degc x1 := rfl

/-- The reference's mean at an entry. -/
theorem v22_at (x0 : FVec Ideal S100000x128 .f32) (x1 : IVec S2x1600000 32) (p : Fin 100000) (k : Fin 128) :
    val_main_v22 (F := Ideal) x0 x1 (ix2 p k) = Ideal.div (agg x0 x1 (ix2 p k)) (degc x1 (ix1 p)) := by
  rw [val_main_v22_apply, val_main_v21_apply, val_main_v20_apply, v13_eq, v19_eq]
  exact congrArg (fun j => Ideal.div (agg x0 x1 (ix2 p k)) (degc x1 j))
    (funext fun a => Fin.ext (by match a with | ⟨0, _⟩ => rfl))

/-- The first layer before its cut-off, at an entry, in the reference's order of the three terms. -/
theorem v28_at (x0 : FVec Ideal S100000x128 .f32) (x1 : IVec S2x1600000 32) (x2 : FVec Ideal S128x128 .f32)
    (x3 : FVec Ideal S128 .f32) (x4 : FVec Ideal S128x128 .f32) (p : Fin 100000) (q : Fin 128) :
    val_main_v28 (F := Ideal) x0 x1 x2 x3 x4 (ix2 p q) = sageAt (agg x0 x1) x0 (degc x1) x2 x4 x3 p q := by
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have el' : ∀ k : Fin 128, lidx_main_v27 (ix2 p q) k = ix2 p k := fun k =>
    funext fun a => Fin.ext (by match a with | ⟨0, _⟩ => rfl | ⟨1, _⟩ => rfl)
  have er' : ∀ k : Fin 128, ridx_main_v27 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  rw [val_main_v28_apply, val_main_v26_apply, val_main_v23_apply, val_main_v27_apply, val_main_v25_apply, val_main_v24_apply]
  simp only [el, er, el', er', eb, v22_at]
  unfold sageAt
  exact add_right_comm _ _ _

/-- The reference's first layer is the specification's. -/
theorem v29_eq (x0 : FVec Ideal S100000x128 .f32) (x1 : IVec S2x1600000 32) (x2 : FVec Ideal S128x128 .f32)
    (x3 : FVec Ideal S128 .f32) (x4 : FVec Ideal S128x128 .f32) :
    val_main_v29 (F := Ideal) x0 x1 x2 x3 x4 = h0 x0 x1 x2 x4 x3 := by
  funext i
  obtain ⟨p, q, rfl⟩ : ∃ (p : Fin 100000) (q : Fin 128), i = ix2 p q := ⟨i 0, i 1, eq_ix2 i⟩
  rw [val_main_v29_apply, val_main_call0_v0_apply, val_main_call0_cst_apply, v28_at]
  rfl

/-- The reference's second aggregate is the specification's aggregate of the first layer. -/
theorem v43_eq (x0 : FVec Ideal S100000x128 .f32) (x1 : IVec S2x1600000 32) (x2 : FVec Ideal S128x128 .f32)
    (x3 : FVec Ideal S128 .f32) (x4 : FVec Ideal S128x128 .f32) :
    val_main_v43 (F := Ideal) x0 x1 x2 x3 x4 = agg (val_main_v29 (F := Ideal) x0 x1 x2 x3 x4) x1 := rfl

/-- The reference's clamped in-degree (computed again for the second layer) is the specification's. -/
theorem v49_eq (x1 : IVec S2x1600000 32) : val_main_v49 (F := Ideal) x1 = degc x1 := rfl

/-- The reference's second mean at an entry. -/
theorem v52_at (x0 : FVec Ideal S100000x128 .f32) (x1 : IVec S2x1600000 32) (x2 : FVec Ideal S128x128 .f32)
    (x3 : FVec Ideal S128 .f32) (x4 : FVec Ideal S128x128 .f32) (p : Fin 100000) (k : Fin 128) :
    val_main_v52 (F := Ideal) x0 x1 x2 x3 x4 (ix2 p k) = Ideal.div (agg (h0 x0 x1 x2 x4 x3) x1 (ix2 p k)) (degc x1 (ix1 p)) := by
  rw [val_main_v52_apply, val_main_v51_apply, val_main_v50_apply, v43_eq, v49_eq, v29_eq]
  exact congrArg (fun j => Ideal.div (agg (h0 x0 x1 x2 x4 x3) x1 (ix2 p k)) (degc x1 j)) (funext fun a => Fin.ext (by match a with | ⟨0, _⟩ => rfl))

/-- The reference's first result is the specification's. -/
theorem v58_eq (x0 : FVec Ideal S100000x128 .f32) (x1 : IVec S2x1600000 32) (x2 : FVec Ideal S128x128 .f32)
    (x3 : FVec Ideal S128 .f32) (x4 x5 : FVec Ideal S128x128 .f32) (x6 : FVec Ideal S128 .f32) (x7 : FVec Ideal S128x128 .f32) :
    val_main_v58 (F := Ideal) x0 x1 x2 x3 x4 x5 x6 x7 = emb x0 x1 x2 x4 x3 x5 x7 x6 := by
  funext i
  obtain ⟨p, q, rfl⟩ : ∃ (p : Fin 100000) (q : Fin 128), i = ix2 p q := ⟨i 0, i 1, eq_ix2 i⟩
  have el : ∀ k : Fin 128, lidx_main_v53 (ix2 p q) k = ix2 p k := fun k => funext fun a => Fin.ext (by match a with | ⟨0, _⟩ => rfl | ⟨1, _⟩ => rfl)
  have er : ∀ k : Fin 128, ridx_main_v53 (ix2 p q) k = ix2 k q := fun k => funext fun a => Fin.ext (by match a with | ⟨0, _⟩ => rfl | ⟨1, _⟩ => rfl)
  have el' : ∀ k : Fin 128, lidx_main_v57 (ix2 p q) k = ix2 p k := fun k => funext fun a => Fin.ext (by match a with | ⟨0, _⟩ => rfl | ⟨1, _⟩ => rfl)
  have er' : ∀ k : Fin 128, ridx_main_v57 (ix2 p q) k = ix2 k q := fun k => funext fun a => Fin.ext (by match a with | ⟨0, _⟩ => rfl | ⟨1, _⟩ => rfl)
  have eb : idx_main_v54 (idx_main_v55 (ix2 p q)) = ix1 q := funext fun a => Fin.ext (by match a with | ⟨0, _⟩ => rfl)
  rw [val_main_v58_apply, val_main_v56_apply, val_main_v53_apply, val_main_v57_apply, val_main_v55_apply, val_main_v54_apply]
  simp only [el, er, el', er', eb, v52_at, v29_eq]
  show _ = sageAt (agg (h0 x0 x1 x2 x4 x3) x1) (h0 x0 x1 x2 x4 x3) (degc x1) x5 x7 x6 p q
  unfold sageAt
  exact add_right_comm _ _ _

/-- The reference's hidden activations at an entry. -/
theorem v64_at (x0 : FVec Ideal S100000x128 .f32) (x1 : IVec S2x1600000 32) (x2 : FVec Ideal S128x128 .f32)
    (x3 : FVec Ideal S128 .f32) (x4 x5 : FVec Ideal S128x128 .f32) (x6 : FVec Ideal S128 .f32) (x7 : FVec Ideal S128x128 .f32) (x8 : FVec Ideal S128x256 .f32) (x9 : FVec Ideal S256 .f32) (p : Fin 100000) (k : Fin 256) :
    val_main_v64 (F := Ideal) x0 x1 x2 x3 x4 x5 x6 x7 x8 x9 (ix2 p k) = hidAt (emb x0 x1 x2 x4 x3 x5 x7 x6) x8 x9 p k := by
  have el : ∀ j : Fin 128, lidx_main_v60 (ix2 p k) j = ix2 p j := fun j => funext fun a => Fin.ext (by match a with | ⟨0, _⟩ => rfl | ⟨1, _⟩ => rfl)
  have er : ∀ j : Fin 128, ridx_main_v60 (ix2 p k) j = ix2 j k := fun j => funext fun a => Fin.ext (by match a with | ⟨0, _⟩ => rfl | ⟨1, _⟩ => rfl)
  have eb : idx_main_v61 (idx_main_v62 (ix2 p k)) = ix1 k := funext fun a => Fin.ext (by match a with | ⟨0, _⟩ => rfl)
  rw [val_main_v64_apply, val_main_call2_v0_apply, val_main_call2_cst_apply, val_main_v63_apply, val_main_v60_apply,
    val_main_v62_apply, val_main_v61_apply, Ideal.maximumf_def, Ideal.addf_def, Ideal.ofBits_def]
  unfold hidAt
  refine congrArg₂ max (congrArg₂ (· + ·) (Finset.sum_congr rfl fun j _ => ?_) (congrArg x9 eb)) rfl
  rw [el j, er j, val_main_v59_apply, val_main_call1_v0_apply, val_main_call1_cst_apply, v58_eq, Ideal.maximumf_def,
    Ideal.ofBits_def]

/-- The reference's second result is the specification's. -/
theorem v68_eq (x0 : FVec Ideal S100000x128 .f32) (x1 : IVec S2x1600000 32) (x2 : FVec Ideal S128x128 .f32)
    (x3 : FVec Ideal S128 .f32) (x4 x5 : FVec Ideal S128x128 .f32) (x6 : FVec Ideal S128 .f32) (x7 : FVec Ideal S128x128 .f32) (x8 : FVec Ideal S128x256 .f32) (x9 : FVec Ideal S256 .f32) (x10 : FVec Ideal S256x1 .f32)
    (x11 : FVec Ideal S1 .f32) :
    val_main_v68 (F := Ideal) x0 x1 x2 x3 x4 x5 x6 x7 x8 x9 x10 x11 = pred (emb x0 x1 x2 x4 x3 x5 x7 x6) x8 x9 x10 x11 := by
  funext i
  obtain ⟨p, u, rfl⟩ : ∃ (p : Fin 100000) (u : Fin 1), i = ix2 p u := ⟨i 0, i 1, eq_ix2 i⟩
  obtain rfl : u = 0 := Subsingleton.elim _ _
  have el : ∀ k : Fin 256, lidx_main_v65 (ix2 p (0 : Fin 1)) k = ix2 p k := fun k => funext fun a => Fin.ext (by match a with | ⟨0, _⟩ => rfl | ⟨1, _⟩ => rfl)
  have er : ∀ k : Fin 256, ridx_main_v65 (ix2 p (0 : Fin 1)) k = ix2 k (0 : Fin 1) := fun k => funext fun a => Fin.ext (by match a with | ⟨0, _⟩ => rfl | ⟨1, _⟩ => rfl)
  have eb : idx_main_v66 (idx_main_v67 (ix2 p (0 : Fin 1))) = ix1 (0 : Fin 1) := funext fun a => Fin.ext (by match a with | ⟨0, _⟩ => rfl)
  rw [val_main_v68_apply, val_main_v65_apply, val_main_v67_apply, val_main_v66_apply, Ideal.addf_def]
  show _ = predAt (emb x0 x1 x2 x4 x3 x5 x7 x6) x8 x9 x10 x11 p
  unfold predAt
  refine congrArg₂ (· + ·) (Finset.sum_congr rfl fun k _ => ?_) (congrArg x11 eb)
  rw [el k, er k, v64_at]

end Cert.Sage.Ref

end
-- ==== Proof.lean ====
/-
  Two layers of mean aggregation over a graph and a perceptron head: the kernel's program against its reference.

  Both programs compute, from the node features x, the edge array and the weights, the second layer's value
  (first result) and the perceptron's output on it (second result). The kernel runs each layer as a blocked
  kernel over 25 blocks of 4000 nodes, between host gathers and scatter-adds; the reference is host operations
  only. At the ideal values every rounding is the identity and every matrix product a plain sum, so both are the
  specification's functions `emb` and `pred` of the arguments: the only algebra between them is the order of
  the three terms of a layer. No finiteness of the inputs is used.

  The three frames are the generated runs; nothing was rewritten by the idealization, so it preserves trivially.
-/
import proofs.«139941_j36928128811710_2_alg».proof.Defs
import proofs.«139941_j36928128811710_2_alg».proof.Proof.Gen.Kernel
import proofs.«139941_j36928128811710_2_alg».proof.Proof.Gen.Kernel.Skeleton
import proofs.«139941_j36928128811710_2_alg».proof.Proof.Gen.Kernel.Launch
import proofs.«139941_j36928128811710_2_alg».proof.Proof.Gen.Kernel.Points
import proofs.«139941_j36928128811710_2_alg».proof.Proof.Gen.Kernel.Frame
import proofs.«139941_j36928128811710_2_alg».proof.Proof.Gen.KernelIdeal
import proofs.«139941_j36928128811710_2_alg».proof.Proof.Gen.KernelIdeal.Skeleton
import proofs.«139941_j36928128811710_2_alg».proof.Proof.Gen.KernelIdeal.Launch
import proofs.«139941_j36928128811710_2_alg».proof.Proof.Gen.KernelIdeal.Points
import proofs.«139941_j36928128811710_2_alg».proof.Proof.Gen.KernelIdeal.Frame
import proofs.«139941_j36928128811710_2_alg».proof.Proof.Gen.ReferenceIdeal
import proofs.«139941_j36928128811710_2_alg».proof.Proof.Gen.Pre_finite_inputs
import proofs.«139941_j36928128811710_2_alg».proof.Proof.Gen.ReferenceIdeal.Run
import proofs.«139941_j36928128811710_2_alg».proof.Proof.Gen.ReferenceIdeal.Read
import proofs.«139941_j36928128811710_2_alg».proof.Proof.KernelRun
import proofs.«139941_j36928128811710_2_alg».proof.Proof.KValue
import proofs.«139941_j36928128811710_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's two functions of arguments that agree. -/
theorem algebraic : Cert.algebraic_KernelIdeal_ReferenceIdeal := by
  intro m ρ m' ρ' _ hagree
  refine ⟨_, _, (θ_run Cert.KernelIdeal.defs _ _).mono (fun r h c =>
      ⟨(h c).1.trans (Cert.Sage.KValue.res0 m ρ c), (h c).2.1.trans (Cert.Sage.KValue.res1 m ρ c), (h c).2.2⟩)
    (Cert.Sage.KRun.run (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    refine (Cert.ReferenceIdeal.Read.val_main_v58_eq m' c).trans ((Cert.Sage.Ref.v58_eq _ _ _ _ _ _ _ _).trans ?_)
    rw [e0, e1, e2, e3, e4, e5, e6, e7]
  · obtain ⟨e0, e1, e2, e3, e4, e5, e6, e7, e8, e9, e10, e11⟩ := hagree c
    refine (Cert.ReferenceIdeal.Read.val_main_v68_eq m' c).trans ((Cert.Sage.Ref.v68_eq _ _ _ _ _ _ _ _ _ _ _ _).trans ?_)
    rw [e0, e1, e2, e3, e4, e5, e6, e7, e8, e9, e10, e11]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
